-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024 : Shape := ⟨2, ![256, 1024]⟩
abbrev S1024x1024 : Shape := ⟨2, ![1024, 1024]⟩
abbrev S64 : Shape := ⟨1, ![64]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S256x1024 .f32) (main_arg1 : FVec F S1024x1024 .f32) (main_arg2 : FVec F S64 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S256x1024 : Shape := ⟨2, ![256, 1024]⟩
abbrev S1024x1024 : Shape := ⟨2, ![1024, 1024]⟩
abbrev S64 : Shape := ⟨1, ![64]⟩
abbrev S1024x256 : Shape := ⟨2, ![1024, 256]⟩
abbrev S64x1 : Shape := ⟨2, ![64, 1]⟩
abbrev S64x256 : Shape := ⟨2, ![64, 256]⟩
abbrev S16x1 : Shape := ⟨2, ![16, 1]⟩
abbrev S16x256 : Shape := ⟨2, ![16, 256]⟩
abbrev S256x256 : Shape := ⟨2, ![256, 256]⟩
abbrev S16x16x256 : Shape := ⟨3, ![16, 16, 256]⟩
abbrev S16x256x128 : Shape := ⟨3, ![16, 256, 128]⟩
abbrev S16x1x256 : Shape := ⟨3, ![16, 1, 256]⟩
abbrev S16x1x128 : Shape := ⟨3, ![16, 1, 128]⟩
abbrev S16x128 : Shape := ⟨2, ![16, 128]⟩
abbrev S16x256x1 : Shape := ⟨3, ![16, 256, 1]⟩
abbrev S256x64 : Shape := ⟨2, ![256, 64]⟩

abbrev nBuf : Space → Nat
  | .hbm => 8
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S64, .f32⟩
  | .hbm, ⟨3, _⟩ => ⟨S1024x1024, .f32⟩
  | .hbm, ⟨4, _⟩ => ⟨S1024x256, .f32⟩
  | .hbm, ⟨5, _⟩ => ⟨S64x1, .f32⟩
  | .hbm, ⟨6, _⟩ => ⟨S64x256, .f32⟩
  | .hbm, ⟨7, _⟩ => ⟨S256x64, .f32⟩
  | .local _ .vmem, ⟨0, _⟩ => ⟨S1024x256, .f32⟩
  | .local _ .vmem, ⟨1, _⟩ => ⟨S256x1024, .f32⟩
  | .local _ .vmem, ⟨2, _⟩ => ⟨S256x1024, .f32⟩
  | .local _ .vmem, ⟨3, _⟩ => ⟨S16x1, .f32⟩
  | .local _ .vmem, ⟨4, _⟩ => ⟨S16x1, .f32⟩
  | .local _ .vmem, ⟨5, _⟩ => ⟨S16x256, .f32⟩
  | .local _ .vmem, ⟨6, _⟩ => ⟨S16x256, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S1024x1024_S1024x1024_1_0 : S1024x1024.Transposes [1, 0] S1024x1024
  transposes_S256x1024_S1024x256_1_0 : S256x1024.Transposes [1, 0] S1024x256
  shapeCasts_S64_S64x1 : S64.ShapeCasts S64x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  shapeCasts_S256x256_S16x16x256 : S256x256.ShapeCasts S16x16x256
  inb_S16x1_S16x1_0_0 : ∀ a, (![0, 0] : Fin 2 → Nat) a + S16x1.size a ≤ S16x1.size a
  h_S16x1 : 0 < S16x1.numel
  shapeCasts_S16x1_S16x1 : S16x1.ShapeCasts S16x1
  slices_S16x16x256_o0_0_0_S16x1x256 : S16x16x256.Slices ![0, 0, 0] S16x1x256
  shapeCasts_S16x1x256_S16x256 : S16x1x256.ShapeCasts S16x256
  slices_S16x16x256_o0_0_0_S16x1x128 : S16x16x256.Slices ![0, 0, 0] S16x1x128
  shapeCasts_S16x1x128_S16x128 : S16x1x128.ShapeCasts S16x128
  shapeCasts_S16x256_S16x256x1 : S16x256.ShapeCasts S16x256x1
  shapeCasts_S16x128_S16x1x128 : S16x128.ShapeCasts S16x1x128
  broadcasts_S16x256x1_S16x256x128 : S16x256x1.Broadcasts S16x256x128
  broadcasts_S16x1x128_S16x256x128 : S16x1x128.Broadcasts S16x256x128
  slices_S16x16x256_o0_1_0_S16x1x256 : S16x16x256.Slices ![0, 1, 0] S16x1x256
  slices_S16x16x256_o0_1_0_S16x1x128 : S16x16x256.Slices ![0, 1, 0] S16x1x128
  slices_S16x16x256_o0_2_0_S16x1x256 : S16x16x256.Slices ![0, 2, 0] S16x1x256
  slices_S16x16x256_o0_2_0_S16x1x128 : S16x16x256.Slices ![0, 2, 0] S16x1x128
  slices_S16x16x256_o0_3_0_S16x1x256 : S16x16x256.Slices ![0, 3, 0] S16x1x256
  slices_S16x16x256_o0_3_0_S16x1x128 : S16x16x256.Slices ![0, 3, 0] S16x1x128
  slices_S16x16x256_o0_4_0_S16x1x256 : S16x16x256.Slices ![0, 4, 0] S16x1x256
  slices_S16x16x256_o0_4_0_S16x1x128 : S16x16x256.Slices ![0, 4, 0] S16x1x128
  slices_S16x16x256_o0_5_0_S16x1x256 : S16x16x256.Slices ![0, 5, 0] S16x1x256
  slices_S16x16x256_o0_5_0_S16x1x128 : S16x16x256.Slices ![0, 5, 0] S16x1x128
  slices_S16x16x256_o0_6_0_S16x1x256 : S16x16x256.Slices ![0, 6, 0] S16x1x256
  slices_S16x16x256_o0_6_0_S16x1x128 : S16x16x256.Slices ![0, 6, 0] S16x1x128
  slices_S16x16x256_o0_7_0_S16x1x256 : S16x16x256.Slices ![0, 7, 0] S16x1x256
  slices_S16x16x256_o0_7_0_S16x1x128 : S16x16x256.Slices ![0, 7, 0] S16x1x128
  slices_S16x16x256_o0_8_0_S16x1x256 : S16x16x256.Slices ![0, 8, 0] S16x1x256
  slices_S16x16x256_o0_8_0_S16x1x128 : S16x16x256.Slices ![0, 8, 0] S16x1x128
  slices_S16x16x256_o0_9_0_S16x1x256 : S16x16x256.Slices ![0, 9, 0] S16x1x256
  slices_S16x16x256_o0_9_0_S16x1x128 : S16x16x256.Slices ![0, 9, 0] S16x1x128
  slices_S16x16x256_o0_10_0_S16x1x256 : S16x16x256.Slices ![0, 10, 0] S16x1x256
  slices_S16x16x256_o0_10_0_S16x1x128 : S16x16x256.Slices ![0, 10, 0] S16x1x128
  slices_S16x16x256_o0_11_0_S16x1x256 : S16x16x256.Slices ![0, 11, 0] S16x1x256
  slices_S16x16x256_o0_11_0_S16x1x128 : S16x16x256.Slices ![0, 11, 0] S16x1x128
  slices_S16x16x256_o0_12_0_S16x1x256 : S16x16x256.Slices ![0, 12, 0] S16x1x256
  slices_S16x16x256_o0_12_0_S16x1x128 : S16x16x256.Slices ![0, 12, 0] S16x1x128
  slices_S16x16x256_o0_13_0_S16x1x256 : S16x16x256.Slices ![0, 13, 0] S16x1x256
  slices_S16x16x256_o0_13_0_S16x1x128 : S16x16x256.Slices ![0, 13, 0] S16x1x128
  slices_S16x16x256_o0_14_0_S16x1x256 : S16x16x256.Slices ![0, 14, 0] S16x1x256
  slices_S16x16x256_o0_14_0_S16x1x128 : S16x16x256.Slices ![0, 14, 0] S16x1x128
  slices_S16x16x256_o0_15_0_S16x1x256 : S16x16x256.Slices ![0, 15, 0] S16x1x256
  slices_S16x16x256_o0_15_0_S16x1x128 : S16x16x256.Slices ![0, 15, 0] S16x1x128
  reduces_S16x256x128_S16x128 : S16x256x128.Reduces [1] S16x128
  broadcasts_S16x1_S16x128 : S16x1.Broadcasts S16x128
  inb_S16x256_S16x128_0_0 : ∀ a, (![0, 0] : Fin 2 → Nat) a + S16x128.size a ≤ S16x256.size a
  h_S16x128 : 0 < S16x128.numel
  slices_S16x16x256_o0_0_128_S16x1x128 : S16x16x256.Slices ![0, 0, 128] S16x1x128
  slices_S16x16x256_o0_1_128_S16x1x128 : S16x16x256.Slices ![0, 1, 128] S16x1x128
  slices_S16x16x256_o0_2_128_S16x1x128 : S16x16x256.Slices ![0, 2, 128] S16x1x128
  slices_S16x16x256_o0_3_128_S16x1x128 : S16x16x256.Slices ![0, 3, 128] S16x1x128
  slices_S16x16x256_o0_4_128_S16x1x128 : S16x16x256.Slices ![0, 4, 128] S16x1x128
  slices_S16x16x256_o0_5_128_S16x1x128 : S16x16x256.Slices ![0, 5, 128] S16x1x128
  slices_S16x16x256_o0_6_128_S16x1x128 : S16x16x256.Slices ![0, 6, 128] S16x1x128
  slices_S16x16x256_o0_7_128_S16x1x128 : S16x16x256.Slices ![0, 7, 128] S16x1x128
  slices_S16x16x256_o0_8_128_S16x1x128 : S16x16x256.Slices ![0, 8, 128] S16x1x128
  slices_S16x16x256_o0_9_128_S16x1x128 : S16x16x256.Slices ![0, 9, 128] S16x1x128
  slices_S16x16x256_o0_10_128_S16x1x128 : S16x16x256.Slices ![0, 10, 128] S16x1x128
  slices_S16x16x256_o0_11_128_S16x1x128 : S16x16x256.Slices ![0, 11, 128] S16x1x128
  slices_S16x16x256_o0_12_128_S16x1x128 : S16x16x256.Slices ![0, 12, 128] S16x1x128
  slices_S16x16x256_o0_13_128_S16x1x128 : S16x16x256.Slices ![0, 13, 128] S16x1x128
  slices_S16x16x256_o0_14_128_S16x1x128 : S16x16x256.Slices ![0, 14, 128] S16x1x128
  slices_S16x16x256_o0_15_128_S16x1x128 : S16x16x256.Slices ![0, 15, 128] S16x1x128
  inb_S16x256_S16x128_0_128 : ∀ a, (![0, 128] : Fin 2 → Nat) a + S16x128.size a ≤ S16x256.size a
  transposes_S64x256_S256x64_1_0 : S64x256.Transposes [1, 0] S256x64
  dot_S256x1024_S1024x256_S256x256_1_0_0_1_n_n_wf : DotDims.WF S256x1024 S1024x256 S256x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S1024x256.size a
  hwx0_0 : ∀ i : grid0.Coords, EltTy.bits .f32 = 32 ∨ (Rect.block (s := S1024x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S1024x1024.size a
  hwx0_1 : ∀ i : grid0.Coords, EltTy.bits .f32 = 32 ∨ (Rect.block (s := S1024x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S64x1.size a
  hwx0_2 : ∀ i : grid0.Coords, EltTy.bits .f32 = 32 ∨ (Rect.block (s := S64x1) S16x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x256.size a ≤ S64x256.size a
  hwx0_3 : ∀ i : grid0.Coords, EltTy.bits .f32 = 32 ∨ (Rect.block (s := S64x256) S16x256.size (cc0_transform_3 i) (hinb0_3 i)).WholeWords (EltTy.packing .f32)

variable [Facts₀]

def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf

abbrev win0_0 : Pipeline.Window sig grid0 :=
  Pipeline.Window.ofSpec (Memref.whole main_v1) S1024x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S16x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x1024 : Shape := ⟨2, ![256, 1024]⟩
abbrev S1024x1024 : Shape := ⟨2, ![1024, 1024]⟩
abbrev S64 : Shape := ⟨1, ![64]⟩
abbrev S256x64x16 : Shape := ⟨3, ![256, 64, 16]⟩
abbrev S256x1x64x16 : Shape := ⟨4, ![256, 1, 64, 16]⟩
abbrev S1x256x64x16 : Shape := ⟨4, ![1, 256, 64, 16]⟩
abbrev S256x256x64x16 : Shape := ⟨4, ![256, 256, 64, 16]⟩
abbrev S_ : Shape := ⟨0, ![]⟩
abbrev S256x256x64 : Shape := ⟨3, ![256, 256, 64]⟩
abbrev S256x64 : Shape := ⟨2, ![256, 64]⟩
abbrev S1x64 : Shape := ⟨2, ![1, 64]⟩

abbrev nBuf : Space → Nat
  | .hbm => 20
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S64, .f32⟩
  | .hbm, ⟨3, _⟩ => ⟨S256x1024, .f32⟩
  | .hbm, ⟨4, _⟩ => ⟨S256x64x16, .f32⟩
  | .hbm, ⟨5, _⟩ => ⟨S256x1x64x16, .f32⟩
  | .hbm, ⟨6, _⟩ => ⟨S1x256x64x16, .f32⟩
  | .hbm, ⟨7, _⟩ => ⟨S256x256x64x16, .f32⟩
  | .hbm, ⟨8, _⟩ => ⟨S256x256x64x16, .f32⟩
  | .hbm, ⟨9, _⟩ => ⟨S256x256x64x16, .f32⟩
  | .hbm, ⟨10, _⟩ => ⟨S256x256x64x16, .f32⟩
  | .hbm, ⟨11, _⟩ => ⟨S_, .f32⟩
  | .hbm, ⟨12, _⟩ => ⟨S256x256x64, .f32⟩
  | .hbm, ⟨13, _⟩ => ⟨S256x256x64, .f32⟩
  | .hbm, ⟨14, _⟩ => ⟨S256x256x64, .f32⟩
  | .hbm, ⟨15, _⟩ => ⟨S_, .f32⟩
  | .hbm, ⟨16, _⟩ => ⟨S256x64, .f32⟩
  | .hbm, ⟨17, _⟩ => ⟨S1x64, .f32⟩
  | .hbm, ⟨18, _⟩ => ⟨S256x64, .f32⟩
  | .hbm, ⟨19, _⟩ => ⟨S256x64, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]

class Facts₀ : Prop where
  shapeCasts_S256x1024_S256x64x16 : S256x1024.ShapeCasts S256x64x16
  bcast_S256x64x16_S256x1x64x16_0_2_3 : S256x64x16.BroadcastsInDim S256x1x64x16 (![0, 2, 3] : Fin 3 → Fin S256x1x64x16.rank)
  bcast_S256x64x16_S1x256x64x16_1_2_3 : S256x64x16.BroadcastsInDim S1x256x64x16 (![1, 2, 3] : Fin 3 → Fin S1x256x64x16.rank)
  bcast_S256x1x64x16_S256x256x64x16_0_1_2_3 : S256x1x64x16.BroadcastsInDim S256x256x64x16 (![0, 1, 2, 3] : Fin 4 → Fin S256x256x64x16.rank)
  bcast_S1x256x64x16_S256x256x64x16_0_1_2_3 : S1x256x64x16.BroadcastsInDim S256x256x64x16 (![0, 1, 2, 3] : Fin 4 → Fin S256x256x64x16.rank)
  reducesTo_S256x256x64x16_S256x256x64_d3 : S256x256x64x16.ReducesTo [3] S256x256x64
  h_S_ : 0 < S_.numel
  reducesTo_S256x256x64_S256x64_d0 : S256x256x64.ReducesTo [0] S256x64
  bcast_S64_S1x64_1 : S64.BroadcastsInDim S1x64 (![1] : Fin 1 → Fin S1x64.rank)
  bcast_S1x64_S256x64_0_1 : S1x64.BroadcastsInDim S256x64 (![0, 1] : Fin 2 → Fin S256x64.rank)
  dot_S256x1024_S1024x1024_S256x1024_1_0_0_1_n_n_wf : DotDims.WF S256x1024 S1024x1024 S256x1024 [1] [0] [0] [1] [] []

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

class Facts : Prop extends Facts₀ where

variable [Facts]
-- ==== Proof.LibPlainMatmul.lean ====
/-
  A plain matrix product read at one entry, over the extended reals.

  For the dimension numbers of an `M × K` by `K × N` product (`DotDims.plain M K N`: the left operand
  contracted on its second axis, the right one on its first, no batch axis) the entry `(p, q)` of the
  product is `∑ k, lhs (p, k) * rhs (k, q)`: for a kernel's matrix-unit product accumulated into the zero
  splat, and for the host's `dot_general`. The contraction index of such a product has one coordinate, and
  the operands' indices at output `(p, q)` and contraction coordinate `k` are `(p, k)` and `(k, q)`.
-/
import Idealize.ShloMosaic.Lib.ValueIdx
import Idealize.ShloMosaic.PureOps.Ideal.Laws

noncomputable section

open scoped BigOperators

namespace Cert.PlainMatmul

open Idealize.ShloMosaic Idealize.ShloMosaic.ValueIdx

variable {M K N : Nat}

/-- The contraction of a plain product runs over one axis … -/
theorem contr_rank : (DotDims.plain M K N).contr.rank = 1 := rfl

/-- … of extent `K`. -/
theorem contr_size : (DotDims.plain M K N).contr.size ⟨0, Nat.one_pos⟩ = K := rfl

/-- The contraction index whose one coordinate is `k`. -/
abbrev kidx (k : Fin K) : (DotDims.plain M K N).contr.Idx :=
  (contrEquiv1 (DotDims.plain M K N) K contr_rank contr_size).symm k

/-- At output `(p, q)` and contraction coordinate `k` the left operand is read at `(p, k)`. -/
theorem lhsIdx_eq (p : Fin M) (q : Fin N) (k : Fin K) :
    (DotDims.plain M K N).lhsIdx (ix2 p q) (kidx k) = ix2 p k := by
  funext a
  refine Fin.ext ?_
  match a with
  | ⟨0, h0⟩ =>
    unfold DotDims.lhsIdx
    rw [dif_neg (show ¬(⟨0, h0⟩ : Fin (⟨2, ![M, K]⟩ : Shape).rank) ∈ (DotDims.plain M K N).lhsBatch from List.not_mem_nil),
      dif_pos (show (⟨0, h0⟩ : Fin (⟨2, ![M, K]⟩ : Shape).rank) ∈ (DotDims.plain M K N).lhsNonContracting from
        List.mem_singleton.mpr rfl)]
    rfl
  | ⟨1, _⟩ =>
    exact ((DotDims.plain M K N).lhsIdx_val_of_single (cl := 1) rfl (ix2 p q) (kidx k)).trans
      (contrEquiv1_symm_val (DotDims.plain M K N) K contr_rank contr_size k)

/-- At output `(p, q)` and contraction coordinate `k` the right operand is read at `(k, q)`. -/
theorem rhsIdx_eq (p : Fin M) (q : Fin N) (k : Fin K) :
    (DotDims.plain M K N).rhsIdx (ix2 p q) (kidx k) = ix2 k q := by
  funext a
  refine Fin.ext ?_
  match a with
  | ⟨0, _⟩ =>
    exact ((DotDims.plain M K N).rhsIdx_val_of_single (cr := 0) rfl (ix2 p q) (kidx k)).trans
      (contrEquiv1_symm_val (DotDims.plain M K N) K contr_rank contr_size k)
  | ⟨1, h1⟩ =>
    unfold DotDims.rhsIdx
    rw [dif_neg (show ¬(⟨1, h1⟩ : Fin (⟨2, ![K, N]⟩ : Shape).rank) ∈ (DotDims.plain M K N).rhsBatch from List.not_mem_nil),
      dif_pos (show (⟨1, h1⟩ : Fin (⟨2, ![K, N]⟩ : Shape).rank) ∈ (DotDims.plain M K N).rhsNonContracting from
        List.mem_singleton.mpr rfl)]
    rfl

/-- The sum over the contraction index of a plain product is the sum over its one coordinate. -/
theorem sum_contr (f : (⟨2, ![M, K]⟩ : Shape).Idx → (⟨2, ![K, N]⟩ : Shape).Idx → EReal) (p : Fin M) (q : Fin N) :
    ∑ κ : (DotDims.plain M K N).contr.Idx, f ((DotDims.plain M K N).lhsIdx (ix2 p q) κ) ((DotDims.plain M K N).rhsIdx (ix2 p q) κ)
      = ∑ k : Fin K, f (ix2 p k) (ix2 k q) := by
  rw [← Equiv.sum_comp (contrEquiv1 (DotDims.plain M K N) K contr_rank contr_size).symm]
  refine Finset.sum_congr rfl fun k _ => ?_
  rw [lhsIdx_eq p q k, rhsIdx_eq p q k]

/-- A KERNEL'S PRODUCT into the zero accumulator, at entry `(p, q)`: the sum over `k` of `lhs (p, k) * rhs (k, q)`,
    whatever the operands' formats (a change of format is the identity on the extended reals). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (DotDims.plain M K N) prec lhs rhs (constant (F := Ideal) ⟨2, ![M, N]⟩ .f32 0x00000000#32) (ix2 p q)
      = ∑ k : Fin K, lhs (ix2 p k) * rhs (ix2 k q) := by
  show FloatOps.matmul (DotDims.plain M K N) prec lhs rhs (constant (F := Ideal) ⟨2, ![M, N]⟩ .f32 0x00000000#32) (ix2 p q) = _
  rw [Ideal.matmul_constant_zero_apply]
  exact sum_contr (fun a b => lhs a * rhs b) p q

/-- THE HOST'S `dot_general` with the same dimension numbers, at entry `(p, q)`: the same sum. -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (DotDims.plain M K N) prec lhs rhs (ix2 p q) = ∑ k : Fin K, lhs (ix2 p k) * rhs (ix2 k q) := by
  show FloatOps.dotGeneral (DotDims.plain M K N) prec .single lhs rhs (ix2 p q) = _
  rw [Ideal.dotGeneral_apply]
  exact sum_contr (fun a b => lhs a * rhs b) p q

end Cert.PlainMatmul

end
-- ==== Proof.TileBody.lean ====
/-
  The body of one grid step, read entry by entry over the extended reals.

  A grid step holds the 256 projected rows of sixteen features (an array `P` of shape [16, 16, 256]: feature,
  component, sample) and writes, for each feature `b` and each sample `j`, the sum over all samples `i` of
  `exp (-(L1 distance between the component vectors of i and j))`, plus the feature's bias. The body spells the
  distance as sixteen unrolled steps `acc + |P(b,c,i) - P(b,c,j)|` starting from zero, on two tiles of 128 samples `j`.
  This module reads each piece of that spelling at an index.
-/
import proofs.«117307_j19670950216008_2_alg».proof.Proof.Gen.KernelIdeal.Skeleton
import proofs.«117307_j19670950216008_2_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tile

open Idealize.ShloMosaic Idealize.ShloMosaic.ValueIdx Cert.KernelIdeal Cert.KernelIdeal.Gen

variable {α : Type}

/-! ## The layout steps -/

/-- A slice of one component `c` and `n` samples from `o` on: the component lies inside the sixteen. -/
theorem comp_lt {c o n : ℕ} (h : S16x16x256.Slices ![0, c, o] ⟨3, ![16, 1, n]⟩) : c < 16 := by
  have h1 := h.2 (1 : Fin 3)
  have e : c + 1 ≤ 16 := h1
  omega

/-- … and so do the samples. -/
theorem samp_lt {c o n : ℕ} (h : S16x16x256.Slices ![0, c, o] ⟨3, ![16, 1, n]⟩) (q : Fin n) : o + q.val < 256 := by
  have h2 := h.2 (2 : Fin 3)
  have e : o + n ≤ 256 := h2
  have := q.isLt
  omega

/-- The slice [16, 1, n] of component `c` from sample `o` on, at (b, 0, q), is the array at (b, c, o + q). -/
theorem slice_apply (P : S16x16x256.Idx → α) {c o n : ℕ} (h : S16x16x256.Slices ![0, c, o] ⟨3, ![16, 1, n]⟩)
    (b : Fin 16) (u : Fin 1) (q : Fin n) :
    extractStridedSlice ⟨3, ![16, 1, n]⟩ ![0, c, o] P h (ix3 b u q) = P (ix3 b ⟨c, comp_lt h⟩ ⟨o + q.val, samp_lt h q⟩) :=
  extractStridedSlice_apply _ _ _ _ _ (fun ax => by
    match ax with
    | ⟨0, _⟩ => exact (Nat.zero_add _).symm
    | ⟨1, _⟩ => show c = c + u.val; have := u.isLt; omega
    | ⟨2, _⟩ => rfl)

/-- Component `c` over all samples, laid as a column [16, 256, 1] and repeated along 128 lanes: at (b, i, q) it is
    the array at (b, c, i). -/
theorem rows_apply (P : S16x16x256.Idx → α) {c : ℕ} (h1 : S16x16x256.Slices ![0, c, 0] S16x1x256)
    (h2 : S16x1x256.ShapeCasts S16x256) (h3 : S16x256.ShapeCasts S16x256x1) (h4 : S16x256x1.Broadcasts S16x256x128)
    (b : Fin 16) (i : Fin 256) (q : Fin 128) :
    broadcastTo S16x256x128 (shapeCast S16x256x1 (shapeCast S16x256 (extractStridedSlice S16x1x256 ![0, c, 0] P h1) h2) h3) h4 (ix3 b i q)
      = P (ix3 b ⟨c, comp_lt h1⟩ i) := by
  refine (broadcastTo_apply _ h4 (ix3 b i q) (ix3 b i (0 : Fin 1)) (fun ax => by
    match ax with
    | ⟨0, _⟩ => rfl
    | ⟨1, _⟩ => rfl
    | ⟨2, _⟩ => rfl)).trans ?_
  refine (shapeCast_apply _ h3 (ix3 b i (0 : Fin 1)) (ix2 b i) (by
    rw [Shape.rowMajor_val_three, Shape.rowMajor_val_two]
    show b.val * 256 + i.val = (b.val * 256 + i.val) * 1 + 0
    omega)).trans ?_
  refine (shapeCast_apply _ h2 (ix2 b i) (ix3 b (0 : Fin 1) i) (by
    rw [Shape.rowMajor_val_three, Shape.rowMajor_val_two]
    show (b.val * 1 + 0) * 256 + i.val = b.val * 256 + i.val
    omega)).trans ?_
  refine (slice_apply P h1 b 0 i).trans ?_
  exact congrArg P (funext fun ax => Fin.ext (by
    match ax with
    | ⟨0, _⟩ => rfl
    | ⟨1, _⟩ => rfl
    | ⟨2, _⟩ => exact Nat.zero_add _))

/-- Component `c` over the 128 samples from `o` on, laid as a row [16, 1, 128] and repeated down 256 rows: at
    (b, i, q) it is the array at (b, c, o + q). -/
theorem lanes_apply (P : S16x16x256.Idx → α) {c o : ℕ} (h1 : S16x16x256.Slices ![0, c, o] S16x1x128)
    (h2 : S16x1x128.ShapeCasts S16x128) (h3 : S16x128.ShapeCasts S16x1x128) (h4 : S16x1x128.Broadcasts S16x256x128)
    (b : Fin 16) (i : Fin 256) (q : Fin 128) :
    broadcastTo S16x256x128 (shapeCast S16x1x128 (shapeCast S16x128 (extractStridedSlice S16x1x128 ![0, c, o] P h1) h2) h3) h4 (ix3 b i q)
      = P (ix3 b ⟨c, comp_lt h1⟩ ⟨o + q.val, samp_lt h1 q⟩) := by
  refine (broadcastTo_apply _ h4 (ix3 b i q) (ix3 b (0 : Fin 1) q) (fun ax => by
    match ax with
    | ⟨0, _⟩ => rfl
    | ⟨1, _⟩ => rfl
    | ⟨2, _⟩ => rfl)).trans ?_
  refine (shapeCast_apply _ h3 (ix3 b (0 : Fin 1) q) (ix2 b q) (by
    rw [Shape.rowMajor_val_three, Shape.rowMajor_val_two]
    show b.val * 128 + q.val = (b.val * 1 + 0) * 128 + q.val
    omega)).trans ?_
  refine (shapeCast_apply _ h2 (ix2 b q) (ix3 b (0 : Fin 1) q) (by
    rw [Shape.rowMajor_val_three, Shape.rowMajor_val_two]
    show (b.val * 1 + 0) * 128 + q.val = b.val * 128 + q.val
    omega)).trans ?_
  exact slice_apply P h1 b 0 q

/-! ## The arithmetic steps -/

/-- The sum over the 256 rows of a [16, 256, 128] array, at (b, q). -/
theorem rowSum_apply (src : FVec Ideal S16x256x128 .f32) (h : S16x256x128.Reduces [1] S16x128) (hφ : FTy.f32 = FTy.f32 ∨ FTy.f32 = FTy.bf16)
    (hacc : (0x00000000#32 : BitVec 32) = 0x00000000#32) (b : Fin 16) (q : Fin 128) :
    multiReduction .add [1] S16x128 src 0x00000000#32 h hφ hacc (ix2 b q) = ∑ i : Fin 256, src (ix3 b i q) := by
  refine (Ideal.multiReduction_add_single src 0x00000000#32 h hφ hacc (ix2 b q)).trans ?_
  show ∑ i : Fin 256, src (h.lift (ix2 b q) i) = _
  refine Finset.sum_congr rfl fun i _ => congrArg src (funext fun ax => Fin.ext ?_)
  match ax with
  | ⟨0, _⟩ => rfl
  | ⟨1, _⟩ => rfl
  | ⟨2, _⟩ => rfl

/-- A column [16, 1] repeated along 128 lanes, at (b, q), is the column's entry b. -/
theorem column_apply (v : S16x1.Idx → α) (h : S16x1.Broadcasts S16x128) (b : Fin 16) (q : Fin 128) :
    broadcastTo S16x128 v h (ix2 b q) = v (ix2 b (0 : Fin 1)) :=
  broadcastTo_apply v h (ix2 b q) (ix2 b (0 : Fin 1)) (fun ax => by
    match ax with
    | ⟨0, _⟩ => rfl
    | ⟨1, _⟩ => rfl)

theorem absf_at {s : Shape} (a : FVec Ideal s .f32) (i : s.Idx) : absf a i = max (a i) (-(a i)) := rfl
theorem exp_at {s : Shape} (a : FVec Ideal s .f32) (i : s.Idx) : exp a i = Ideal.exp (a i) := rfl
theorem zero_at {s : Shape} (i : s.Idx) : broadcast s (FloatOps.ofBits (F := Ideal) .f32 0x00000000#32) i = (0 : EReal) :=
  Ideal.ofBits_zero_f32

/-- Sixteen terms added one after the other to zero are their sum. -/
theorem sum_sixteen {M : Type} [AddCommMonoid M] (f : Fin 16 → M) :
    0 + f ⟨0, by decide⟩ + f ⟨1, by decide⟩ + f ⟨2, by decide⟩ + f ⟨3, by decide⟩ + f ⟨4, by decide⟩ + f ⟨5, by decide⟩
      + f ⟨6, by decide⟩ + f ⟨7, by decide⟩ + f ⟨8, by decide⟩ + f ⟨9, by decide⟩ + f ⟨10, by decide⟩ + f ⟨11, by decide⟩
      + f ⟨12, by decide⟩ + f ⟨13, by decide⟩ + f ⟨14, by decide⟩ + f ⟨15, by decide⟩ = ∑ c : Fin 16, f c := by
  simp only [Fin.sum_univ_castSucc, Fin.sum_univ_zero]
  rfl

/-! ## The projected rows -/

/-- The block of projected rows: entry (b, c, n) is the product of row `b * 16 + c` of the weight block with
    column `n` of the transposed samples. -/
theorem proj_apply (x0 : Vec Ideal S1024x256 .f32) (x1 : Vec Ideal S256x1024 .f32) (b c : Fin 16) (n : Fin 256) :
    k0_pay2 x0 x1 (ix3 b c n)
      = ∑ a : Fin 1024, x1 (ix2 (⟨b.val * 16 + c.val, by have := b.isLt; have := c.isLt; omega⟩ : Fin 256) a) * x0 (ix2 a n) := by
  unfold k0_pay2
  refine (shapeCast_apply _ shapeCasts_S256x256_S16x16x256 (ix3 b c n)
    (ix2 (⟨b.val * 16 + c.val, by have := b.isLt; have := c.isLt; omega⟩ : Fin 256) n) (by
      rw [Shape.rowMajor_val_three, Shape.rowMajor_val_two]
      rfl)).trans ?_
  refine (Cert.PlainMatmul.matmul_zero_apply (M := 256) (K := 1024) (N := 256) none _ _ _ n).trans ?_
  refine Finset.sum_congr rfl fun a _ => ?_
  simp only [truncf_apply, shapeCast_self]

/-! ## What a grid step stores -/

/-- For feature `b` and sample `j` of a block `P` of projected rows: over all samples `i`, `exp` of minus the L1
    distance between the sixteen components of `i` and of `j`, summed, plus the feature's bias. -/
def stepVal (P : S16x16x256.Idx → EReal) (bias : S16x1.Idx → EReal) (b : Fin 16) (j : Fin 256) : EReal :=
  (∑ i : Fin 256, Ideal.exp (0 - ∑ c : Fin 16,
      max (P (ix3 b c i) - P (ix3 b c j)) (-(P (ix3 b c i) - P (ix3 b c j))))) + bias (ix2 b (0 : Fin 1))

/-- The first store (samples 0 … 127), entry by entry. -/
theorem store_lo (x0 : Vec Ideal S1024x256 .f32) (x1 : Vec Ideal S256x1024 .f32) (x2 : Vec Ideal S16x1 .f32)
    (b : Fin 16) (q : Fin 128) :
    k0_pay12 (k0_pay2 x0 x1) (k0_pay3 x2)
        (k0_pay9 (k0_pay2 x0 x1) (k0_pay7 (k0_pay2 x0 x1) (k0_pay4 x0 x1) (k0_pay5 x0 x1) (k0_pay6 x0 x1)) (k0_pay8 (k0_pay2 x0 x1)))
        (k0_pay10 (k0_pay2 x0 x1)) (k0_pay11 (k0_pay2 x0 x1)) (ix2 b q)
      = stepVal (k0_pay2 x0 x1) x2 b ⟨0 + q.val, by have := q.isLt; omega⟩ := by
  unfold k0_pay12 k0_pay9 k0_pay7 k0_pay4 k0_pay5 k0_pay6 k0_pay8 k0_pay10 k0_pay11 k0_pay3
  generalize k0_pay2 x0 x1 = P
  rw [addf_apply, rowSum_apply, column_apply]
  simp only [addf_apply, subf_apply, absf_at, exp_at, zero_at, rows_apply, lanes_apply, shapeCast_self]
  unfold stepVal
  refine congrArg (· + _) (Finset.sum_congr rfl fun i _ => congrArg (fun z => Ideal.exp (0 - z)) ?_)
  exact sum_sixteen (fun c => max (P (ix3 b c i) - P (ix3 b c ⟨0 + q.val, by have := q.isLt; omega⟩))
    (-(P (ix3 b c i) - P (ix3 b c ⟨0 + q.val, by have := q.isLt; omega⟩))))

/-- The second store (samples 128 … 255), entry by entry. -/
theorem store_hi (P : FVec Ideal S16x16x256 .f32) (x2 : Vec Ideal S16x1 .f32) (b : Fin 16) (q : Fin 128) :
    k0_pay1 P (k0_pay3 x2) (k0_pay18 P (k0_pay16 P (k0_pay13 P) (k0_pay14 P) (k0_pay15 P)) (k0_pay17 P))
        (k0_pay19 P) (k0_pay20 P) (ix2 b q)
      = stepVal P x2 b ⟨128 + q.val, by have := q.isLt; omega⟩ := by
  unfold k0_pay1 k0_pay18 k0_pay16 k0_pay13 k0_pay14 k0_pay15 k0_pay17 k0_pay19 k0_pay20 k0_pay3
  rw [addf_apply, rowSum_apply, column_apply]
  simp only [addf_apply, subf_apply, absf_at, exp_at, zero_at, rows_apply, lanes_apply, shapeCast_self]
  unfold stepVal
  refine congrArg (· + _) (Finset.sum_congr rfl fun i _ => congrArg (fun z => Ideal.exp (0 - z)) ?_)
  exact sum_sixteen (fun c => max (P (ix3 b c i) - P (ix3 b c ⟨128 + q.val, by have := q.isLt; omega⟩))
    (-(P (ix3 b c i) - P (ix3 b c ⟨128 + q.val, by have := q.isLt; omega⟩))))

end Cert.KernelIdeal.Tile

end
-- ==== Proof.PairDist.lean ====
/-
  The function both programs compute, over the extended reals.

  From samples `x` [256, 1024], weights `w` [1024, 1024] and a bias [64]: every sample is projected, row `n` of
  `x` times `w`, and the 1024 projected entries are read as 64 features of 16 components, component `c` of feature
  `b` being column `b * 16 + c`. For a sample `j` and a feature `b` the result is

    ∑ over all samples i of  exp (-(∑ over components c of |proj i (b,c) - proj j (b,c)|))  +  bias b.

  The kernel computes it feature block by feature block from the transposed arrays, with the inner sum unrolled and the
  outer one taken on 128-sample tiles; the reference computes the whole four-axis table of differences first. Both spell
  the same sums, so nothing but the order of the two factors of a product has to be exchanged.
-/
import Idealize.ShloMosaic.Lib.ValueIdx
import Idealize.ShloMosaic.PureOps.Ideal.Laws

noncomputable section

open scoped BigOperators

namespace Cert.PairDist

open Idealize.ShloMosaic Idealize.ShloMosaic.ValueIdx

/-- Component `c` of feature `b` is projected column `b * 16 + c`. -/
def col (b : Fin 64) (c : Fin 16) : Fin 1024 := ⟨b.val * 16 + c.val, by have := b.isLt; have := c.isLt; omega⟩

/-- Sample `n` projected on column `r`: row `n` of `x` times column `r` of `w`. -/
def proj (x : (⟨2, ![256, 1024]⟩ : Shape).Idx → EReal) (w : (⟨2, ![1024, 1024]⟩ : Shape).Idx → EReal)
    (n : Fin 256) (r : Fin 1024) : EReal :=
  ∑ a : Fin 1024, x (ix2 n a) * w (ix2 a r)

/-- The L1 distance between samples `i` and `j` on the sixteen components of feature `b`, for any table `p` of
    projected entries (sample, column). -/
def l1dist (p : Fin 256 → Fin 1024 → EReal) (b : Fin 64) (i j : Fin 256) : EReal :=
  ∑ c : Fin 16, max (p i (col b c) - p j (col b c)) (-(p i (col b c) - p j (col b c)))

/-- The result at sample `j` and feature `b`. -/
def score (x : (⟨2, ![256, 1024]⟩ : Shape).Idx → EReal) (w : (⟨2, ![1024, 1024]⟩ : Shape).Idx → EReal)
    (bias : (⟨1, ![64]⟩ : Shape).Idx → EReal) (j : Fin 256) (b : Fin 64) : EReal :=
  (∑ i : Fin 256, Ideal.exp (-(l1dist (proj x w) b i j))) + bias (ix1 b)

/-- The whole result array [256, 64]. -/
def result (x : (⟨2, ![256, 1024]⟩ : Shape).Idx → EReal) (w : (⟨2, ![1024, 1024]⟩ : Shape).Idx → EReal)
    (bias : (⟨1, ![64]⟩ : Shape).Idx → EReal) : (⟨2, ![256, 64]⟩ : Shape).Idx → EReal :=
  fun y => score x w bias (y 0) (y 1)

theorem result_apply (x : (⟨2, ![256, 1024]⟩ : Shape).Idx → EReal) (w : (⟨2, ![1024, 1024]⟩ : Shape).Idx → EReal)
    (bias : (⟨1, ![64]⟩ : Shape).Idx → EReal) (j : Fin 256) (b : Fin 64) :
    result x w bias (ix2 j b) = score x w bias j b := rfl

end Cert.PairDist

end
-- ==== Proof.StepOut.lean ====
/-
  What one grid step leaves in its output block, and that it is a block of the specification.

  The step's two stores fill the two halves (samples 0 … 127 and 128 … 255) of a [16, 256] block; entry (b, j) of
  the block is the step's value for feature `b` and sample `j`. When the step's three input blocks are the transposed
  samples, sixteen features' rows of the transposed weights, and those features' biases, that value is the
  specification's at sample `j` and the block's feature — only the order of the two factors of each product differs.
-/
import proofs.«117307_j19670950216008_2_alg».proof.Proof.Gen.KernelIdeal.Frame
import proofs.«117307_j19670950216008_2_alg».proof.Proof.TileBody
import proofs.«117307_j19670950216008_2_alg».proof.Proof.PairDist

noncomputable section

open scoped BigOperators

namespace Cert.KernelIdeal.Step

open Idealize.ShloMosaic Idealize.ShloMosaic.ValueIdx Cert.KernelIdeal Cert.KernelIdeal.Gen Cert.KernelIdeal.Tile Cert.PairDist

theorem zeros : (![0, 0] : Fin 2 → Nat) = fun _ => 0 := funext fun a => by fin_cases a <;> rfl

/-- The output block after the body, entry by entry. -/
theorem out_apply (x0 : Vec Ideal S1024x256 .f32) (x1 : Vec Ideal S256x1024 .f32) (x2 : Vec Ideal S16x1 .f32)
    (y : S16x256.Idx) :
    out0_3 (F := Ideal) x0 x1 x2 y = stepVal (k0_pay2 (F := Ideal) x0 x1) x2 (y 0) (y 1) := by
  unfold out0_3
  simp only [View.ld_unit_zero (S := S1024x256) zeros, View.ld_unit_zero (S := S256x1024) zeros,
    View.ld_unit_zero (S := S16x1) zeros]
  refine View.canon_apply_of_pieces (Val := Elt Ideal) (S := S16x256) (e := .f32) (fun y : S16x256.Idx => stepVal (k0_pay2 (F := Ideal) x0 x1) x2 (y 0) (y 1)) _ ?_ y (cover0_3 _ _ y)
  intro p hp
  rcases List.mem_cons.mp hp with rfl | hp
  · intro x
    obtain ⟨b, q, rfl⟩ : ∃ (b : Fin 16) (q : Fin 128), x = ix2 b q := ⟨x 0, x 1, eq_ix2 x⟩
    refine (store_hi (k0_pay2 (F := Ideal) x0 x1) x2 b q).trans ?_
    have e0 : (r0_4.emb (ix2 b q)) 0 = b := Fin.ext (by show 0 + 1 * b.val = b.val; omega)
    have e1 : (r0_4.emb (ix2 b q)) 1 = (⟨128 + q.val, by have := q.isLt; omega⟩ : Fin 256) :=
      Fin.ext (by show 128 + 1 * q.val = 128 + q.val; omega)
    exact (congrArg₂ (stepVal (k0_pay2 (F := Ideal) x0 x1) x2) e0 e1).symm
  · rcases List.mem_cons.mp hp with rfl | hp
    · intro x
      obtain ⟨b, q, rfl⟩ : ∃ (b : Fin 16) (q : Fin 128), x = ix2 b q := ⟨x 0, x 1, eq_ix2 x⟩
      refine (store_lo x0 x1 x2 b q).trans ?_
      have e0 : (r0_3.emb (ix2 b q)) 0 = b := Fin.ext (by show 0 + 1 * b.val = b.val; omega)
      have e1 : (r0_3.emb (ix2 b q)) 1 = (⟨0 + q.val, by have := q.isLt; omega⟩ : Fin 256) :=
        Fin.ext (by show 0 + 1 * q.val = 0 + q.val; omega)
      exact (congrArg₂ (stepVal (k0_pay2 (F := Ideal) x0 x1) x2) e0 e1).symm
    · exact absurd hp List.not_mem_nil

/-- A step whose inputs are the transposed samples, the rows `T * 256 …` of the transposed weights and the biases
    `T * 16 …` computes the specification for the features `T * 16 + b`. -/
theorem stepVal_eq_score (x : (⟨2, ![256, 1024]⟩ : Shape).Idx → EReal) (w : (⟨2, ![1024, 1024]⟩ : Shape).Idx → EReal)
    (bias : (⟨1, ![64]⟩ : Shape).Idx → EReal)
    (x0 : Vec Ideal S1024x256 .f32) (x1 : Vec Ideal S256x1024 .f32) (x2 : Vec Ideal S16x1 .f32) (T : ℕ) (hT : T < 4)
    (hx0 : ∀ (a : Fin 1024) (n : Fin 256), x0 (ix2 a n) = x (ix2 n a))
    (hx1 : ∀ (r : Fin 256) (a : Fin 1024), x1 (ix2 r a) = w (ix2 a (⟨T * 256 + r.val, by have := r.isLt; omega⟩ : Fin 1024)))
    (hx2 : ∀ b : Fin 16, x2 (ix2 b (0 : Fin 1)) = bias (ix1 (⟨T * 16 + b.val, by have := b.isLt; omega⟩ : Fin 64)))
    (b : Fin 16) (j : Fin 256) :
    stepVal (k0_pay2 (F := Ideal) x0 x1) x2 b j = score x w bias j ⟨T * 16 + b.val, by have := b.isLt; omega⟩ := by
  have hP : ∀ (c : Fin 16) (n : Fin 256),
      k0_pay2 (F := Ideal) x0 x1 (ix3 b c n) = proj x w n (col ⟨T * 16 + b.val, by have := b.isLt; omega⟩ c) := by
    intro c n
    rw [proj_apply]
    unfold proj
    refine Finset.sum_congr rfl fun a _ => ?_
    rw [hx1, hx0, mul_comm]
    refine congrArg (fun r => x (ix2 n a) * w (ix2 a r)) (Fin.ext ?_)
    show T * 256 + (b.val * 16 + c.val) = (T * 16 + b.val) * 16 + c.val
    omega
  unfold stepVal score l1dist
  rw [hx2]
  refine congrArg (· + _) (Finset.sum_congr rfl fun i _ => ?_)
  rw [zero_sub]
  refine congrArg (fun z => Ideal.exp (-z)) (Finset.sum_congr rfl fun c _ => ?_)
  rw [hP, hP]

end Cert.KernelIdeal.Step

end
-- ==== Proof.KernelScore.lean ====
/-
  The kernel's program, read as the specification.

  The host transposes the samples and the weights and lays the bias out as a column; grid step `t` of four receives the
  whole of the transposed samples, rows `256 t … 256 t + 255` of the transposed weights and biases `16 t … 16 t + 15`,
  and writes rows `16 t … 16 t + 15` of a [64, 256] array (feature, sample); the host transposes that array back.
  So the array the region leaves holds, at (feature B, sample j), the specification's value at (j, B), and the
  program's result is the specification's result array.
-/
import proofs.«117307_j19670950216008_2_alg».proof.Proof.Gen.KernelIdeal.Frame
import proofs.«117307_j19670950216008_2_alg».proof.Proof.StepOut
import Idealize.ShloMosaic.Lib.Pipeline.Value
import Idealize.ShloMosaic.Lib.ValueLayout
import Idealize.ShloMosaic.Lib.StableHlo.Run
import Idealize.ShloMosaic.Lib.Tactic

noncomputable section

open scoped BigOperators

namespace Cert.KernelIdeal.Score

open Idealize.ShloMosaic Idealize.ShloMosaic.TcCoe Idealize.SL.Sem Idealize.ShloMosaic.ValueIdx
open Idealize.ShloMosaic.Pipeline (Dat)
open Cert.KernelIdeal Cert.KernelIdeal.Gen Cert.PairDist

variable (m : (ℓ : Loc nD τ sig) → Buf (Elt Ideal) ℓ) (ρ : Dev nD → PrngReg)

/-! ## The arrays the region finds -/

/-- The first window's array is the samples transposed. -/
theorem samplesT (c : Dev nD) (a : Fin 1024) (n : Fin 256) :
    (V m c main_v1 : S1024x256.Idx → EReal) (ix2 a n) = (m ((c : Thread nD τ).loc main_arg0) : S256x1024.Idx → EReal) (ix2 n a) := by
  have e : (V m c main_v1 : S1024x256.Idx → EReal)
      = transpose S1024x256 [1, 0] (m ((c : Thread nD τ).loc main_arg0)) transposes_S256x1024_S1024x256_1_0 := by
    show StableHlo.after hostOps0 (fun b => m (c, b)) (Proc.devRef .tc main_v1) = _
    after_results <;> rfl
  rw [e]
  exact transpose_ix2_apply _ _ a n

/-- The second window's array is the weights transposed. -/
theorem weightsT (c : Dev nD) (r a : Fin 1024) :
    (V m c main_v0 : S1024x1024.Idx → EReal) (ix2 r a) = (m ((c : Thread nD τ).loc main_arg1) : S1024x1024.Idx → EReal) (ix2 a r) := by
  have e : (V m c main_v0 : S1024x1024.Idx → EReal)
      = transpose S1024x1024 [1, 0] (m ((c : Thread nD τ).loc main_arg1)) transposes_S1024x1024_S1024x1024_1_0 := by
    show StableHlo.after hostOps0 (fun b => m (c, b)) (Proc.devRef .tc main_v0) = _
    after_results <;> rfl
  rw [e]
  exact transpose_ix2_apply _ _ r a

/-- The third window's array is the bias as a column. -/
theorem biasCol (c : Dev nD) (b : Fin 64) :
    (V m c main_v2 : S64x1.Idx → EReal) (ix2 b (0 : Fin 1)) = (m ((c : Thread nD τ).loc main_arg2) : S64.Idx → EReal) (ix1 b) := by
  have e : (V m c main_v2 : S64x1.Idx → EReal)
      = shapeCast S64x1 (m ((c : Thread nD τ).loc main_arg2)) shapeCasts_S64_S64x1 := by
    show StableHlo.after hostOps0 (fun b => m (c, b)) (Proc.devRef .tc main_v2) = _
    after_results <;> rfl
  rw [e]
  refine shapeCast_apply (s := S64) (t := S64x1) _ shapeCasts_S64_S64x1 (ix2 b (0 : Fin 1)) (ix1 b) ?_
  show (S64.rowMajor (ix1 b)).val = (S64x1.rowMajor (ix2 b (0 : Fin 1))).val
  rw [Shape.rowMajor_val_one, Shape.rowMajor_val_two]
  show b.val = b.val * 1 + 0
  omega

/-! ## The windows' blocks -/

/-- The block indices of the four windows at grid step `t`, decided over the four steps. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem step_lt (t : Fin cfg0.N) : t.val < 4 := by have h : cfg0.N = 4 := N_0; have := t.isLt; omega

/-- Every step's first block is the whole of the transposed samples. -/
theorem blk0_apply (c : Dev nD) (t : Fin cfg0.N) (a : Fin 1024) (n : Fin 256) :
    (iblk m c 0 t : Vec Ideal S1024x256 .f32) (ix2 a n) = (m ((c : Thread nD τ).loc main_arg0) : S256x1024.Idx → EReal) (ix2 n a) := by
  obtain ⟨e0, e1, -⟩ := idx_facts t
  unfold iblk
  rw [View.read_apply]
  show V m c main_v1 _ = _
  refine Eq.trans (congrArg (V m c main_v1) ?_) (samplesT m c a n)
  funext ax
  apply Fin.ext
  match ax with
  | ⟨0, _⟩ => show win0_0.index t (0 : Fin 2) * 1024 + 1 * a.val = a.val; omega
  | ⟨1, _⟩ => show win0_0.index t (1 : Fin 2) * 256 + 1 * n.val = n.val; omega

/-- Step `t`'s second block is rows `256 t …` of the transposed weights. -/
theorem blk1_apply (c : Dev nD) (t : Fin cfg0.N) (r : Fin 256) (a : Fin 1024) :
    (iblk m c 1 t : Vec Ideal S256x1024 .f32) (ix2 r a)
      = (m ((c : Thread nD τ).loc main_arg1) : S1024x1024.Idx → EReal)
          (ix2 a (⟨t.val * 256 + r.val, by have := step_lt t; have := r.isLt; omega⟩ : Fin 1024)) := by
  obtain ⟨-, -, e2, e3, -⟩ := idx_facts t
  unfold iblk
  rw [View.read_apply]
  show V m c main_v0 _ = _
  refine Eq.trans (congrArg (V m c main_v0) ?_)
    (weightsT m c (⟨t.val * 256 + r.val, by have := step_lt t; have := r.isLt; omega⟩ : Fin 1024) a)
  funext ax
  apply Fin.ext
  match ax with
  | ⟨0, _⟩ => show win0_1.index t (0 : Fin 2) * 256 + 1 * r.val = t.val * 256 + r.val; omega
  | ⟨1, _⟩ => show win0_1.index t (1 : Fin 2) * 1024 + 1 * a.val = a.val; omega

/-- Step `t`'s third block is biases `16 t …`. -/
theorem blk2_apply (c : Dev nD) (t : Fin cfg0.N) (b : Fin 16) :
    (iblk m c 2 t : Vec Ideal S16x1 .f32) (ix2 b (0 : Fin 1))
      = (m ((c : Thread nD τ).loc main_arg2) : S64.Idx → EReal)
          (ix1 (⟨t.val * 16 + b.val, by have := step_lt t; have := b.isLt; omega⟩ : Fin 64)) := by
  obtain ⟨-, -, -, -, e4, e5, -⟩ := idx_facts t
  unfold iblk
  rw [View.read_apply]
  show V m c main_v2 _ = _
  refine Eq.trans (congrArg (V m c main_v2) ?_)
    (biasCol m c (⟨t.val * 16 + b.val, by have := step_lt t; have := b.isLt; omega⟩ : Fin 64))
  funext ax
  apply Fin.ext
  match ax with
  | ⟨0, _⟩ => show win0_2.index t (0 : Fin 2) * 16 + 1 * b.val = t.val * 16 + b.val; omega
  | ⟨1, _⟩ => show win0_2.index t (1 : Fin 2) * 1 + 1 * 0 = 0; omega

/-! ## The array the region leaves -/

/-- The specification with the two axes exchanged: (feature, sample). -/
def byFeature (c : Dev nD) : S64x256.Idx → EReal := fun y =>
  score (m ((c : Thread nD τ).loc main_arg0)) (m ((c : Thread nD τ).loc main_arg1)) (m ((c : Thread nD τ).loc main_arg2)) (y 1) (y 0)

/-- What step `t` writes back is its block of rows of that array. -/
theorem flushed_eq (c : Dev nD) (t : Fin cfg0.N) :
    (dats m 0 c).flushed 3 t = ((cfg0.win 3).blk t).view.read (Elt Ideal) (byFeature m c) := by
  show (cfg0.win 3).cut (grid0.coords t) ((dats m 0 c).after 3 t) = _
  rw [after0_3]
  obtain ⟨-, -, -, -, -, -, e6, e7⟩ := idx_facts t
  funext y
  show out0_3 (iblk m c 0 t) (iblk m c 1 t) (iblk m c 2 t) y = byFeature m c (((cfg0.win 3).blk t).view.emb y)
  refine (Step.out_apply (iblk m c 0 t) (iblk m c 1 t) (iblk m c 2 t) y).trans ?_
  refine (Step.stepVal_eq_score (m ((c : Thread nD τ).loc main_arg0)) (m ((c : Thread nD τ).loc main_arg1))
    (m ((c : Thread nD τ).loc main_arg2)) (iblk m c 0 t) (iblk m c 1 t) (iblk m c 2 t) t.val (step_lt t)
    (blk0_apply m c t) (blk1_apply m c t) (blk2_apply m c t) (y 0) (y 1)).trans ?_
  unfold byFeature
  refine congrArg₂ (score _ _ _) (Fin.ext ?_) (Fin.ext ?_)
  · show (y 1).val = win0_3.index t (1 : Fin 2) * 256 + 1 * (y 1).val; omega
  · show t.val * 16 + (y 0).val = win0_3.index t (0 : Fin 2) * 16 + 1 * (y 0).val; omega

/-- An index of the array is in step `t`'s block iff each coordinate is in the block's range. -/
theorem mem_blk (t : Fin cfg0.N) (i : S64x256.Idx) :
    i ∈ ((cfg0.win 3).blk t).view.set ↔ ∀ a : Fin 2, win0_3.index t a * S16x256.size a ≤ (i a).val
      ∧ (i a).val < win0_3.index t a * S16x256.size a + S16x256.size a := by
  show i ∈ ((View.whole main_v3).slice (win0_3.rect t)).set ↔ _
  rw [View.set_slice_whole, Rect.mem_set_unit]
  exact Iff.rfl

/-- Feature `B` is written by step `B / 16`. -/
theorem cover (i : S64x256.Idx) : ∃ t : Fin cfg0.N, (cfg0.win 3).flush t = true ∧ i ∈ ((cfg0.win 3).blk t).view.set := by
  have h0 : (i 0).val < 64 := (i 0).isLt
  have h1 : (i 1).val < 256 := (i 1).isLt
  have hN : cfg0.N = 4 := N_0
  refine ⟨⟨(i 0).val / 16, by rw [hN]; omega⟩, flush0_3 _, ?_⟩
  rw [mem_blk]
  obtain ⟨-, -, -, -, -, -, e6, e7⟩ := idx_facts ⟨(i 0).val / 16, by rw [hN]; omega⟩
  intro a
  match a with
  | ⟨0, _⟩ =>
    show win0_3.index ⟨(i 0).val / 16, _⟩ (0 : Fin 2) * 16 ≤ (i 0).val ∧ (i 0).val < win0_3.index ⟨(i 0).val / 16, _⟩ (0 : Fin 2) * 16 + 16
    rw [e6]; show (i 0).val / 16 * 16 ≤ (i 0).val ∧ (i 0).val < (i 0).val / 16 * 16 + 16; omega
  | ⟨1, _⟩ =>
    show win0_3.index ⟨(i 0).val / 16, _⟩ (1 : Fin 2) * 256 ≤ (i 1).val ∧ (i 1).val < win0_3.index ⟨(i 0).val / 16, _⟩ (1 : Fin 2) * 256 + 256
    rw [e7]; omega

/-- The region's output array after the run. -/
theorem final (c : Dev nD) : (dats m 0 c).arrAt 3 cfg0.N = byFeature m c :=
  (dats m 0 c).arrAt_eq_of_cover 3 (byFeature m c) (fun t _ => flushed_eq m c t) cover

/-! ## The result -/

/-- The program's result: the region's array transposed back is the specification's result array. -/
theorem result_eq (c : Dev nD) :
    Pipeline.afterTail₀ cfgs (dats m) 0 (V0 m) [hostOps1] c main_v4
      = result (m ((c : Thread nD τ).loc main_arg0)) (m ((c : Thread nD τ).loc main_arg1)) (m ((c : Thread nD τ).loc main_arg2)) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3)
      = byFeature m c :=
    (Pipeline.withArrays_arr spec0 launch0.win.arr_inj c (V0 m c) (fun w => (dats m 0 c).arrAt w cfg0.N) 3).trans (final m c)
  refine (congrArg (fun z => transpose S256x64 [1, 0] z transposes_S64x256_S256x64_1_0) e).trans ?_
  funext y
  obtain ⟨j, b, rfl⟩ : ∃ (j : Fin 256) (b : Fin 64), y = ix2 j b := ⟨y 0, y 1, eq_ix2 y⟩
  rw [result_apply]
  exact transpose_ix2_apply (byFeature m c) transposes_S64x256_S256x64_1_0 j b

/-- The run, read: the result at the specification of the arguments, the arguments unchanged. -/
theorem run : θ_run defs (onTc (τ := τ) (main (F := Ideal))) ⟨m, fun _ => 0, ρ⟩ fun r => ∀ c : Dev nD,
      r.2.mem ((c.tc : Thread nD τ).loc main_v4)
        = result (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Score

end
-- ==== Proof.RefScore.lean ====
/-
  The reference, read entry by entry, is the specification.

  The reference projects the samples (one matrix product), views the 1024 projected columns as 64 features of 16
  components, lays the table out twice on a four-axis grid (sample i, sample j, feature, component) — once constant
  along j, once constant along i —, subtracts, takes absolute values, sums over the components, negates,
  exponentiates, sums over i, and adds the bias along the features. Each stage is read at an index here.
-/
import proofs.«117307_j19670950216008_2_alg».proof.Proof.Gen.ReferenceIdeal.Read
import proofs.«117307_j19670950216008_2_alg».proof.Proof.PairDist

noncomputable section

open scoped BigOperators

namespace Cert.ReferenceIdeal.Score

open Cert.ReferenceIdeal Cert.ReferenceIdeal.Read Idealize.ShloMosaic Idealize.ShloMosaic.ValueIdx Cert.PairDist

variable (x : (⟨S256x1024, .f32⟩ : BufTy).Contents (Elt Ideal)) (w : (⟨S1024x1024, .f32⟩ : BufTy).Contents (Elt Ideal))
  (bias : (⟨S64, .f32⟩ : BufTy).Contents (Elt Ideal))

/-- The projected table viewed as [256, 64, 16]: entry (n, b, c) is sample `n` on column `b * 16 + c`. -/
theorem table_at (n : Fin 256) (b : Fin 64) (c : Fin 16) :
    val_main_v1 (F := Ideal) x w (ix3 n b c) = proj x w n (col b c) := by
  rw [val_main_v1_apply, val_main_v0_apply]
  unfold proj
  refine Finset.sum_congr rfl fun k _ => ?_
  have hn := n.isLt; have hb := b.isLt; have hc := c.isLt
  have e1 : lidx_main_v0 (idx_main_v1 (ix3 n b c)) k = ix2 n k := funext fun a => Fin.ext (by
    match a with
    | ⟨0, _⟩ => show ((n.val * 64 + b.val) * 16 + c.val) / 1024 = n.val; omega
    | ⟨1, _⟩ => rfl)
  have e2 : ridx_main_v0 (idx_main_v1 (ix3 n b c)) k = ix2 k (col b c) := funext fun a => Fin.ext (by
    match a with
    | ⟨0, _⟩ => rfl
    | ⟨1, _⟩ => show ((n.val * 64 + b.val) * 16 + c.val) % 1024 = b.val * 16 + c.val; omega)
  rw [e1, e2]

/-- The absolute differences on the four-axis grid. -/
theorem absdiff_at (i j : Fin 256) (b : Fin 64) (c : Fin 16) :
    val_main_v7 (F := Ideal) x w (ix4 i j b c)
      = max (proj x w i (col b c) - proj x w j (col b c)) (-(proj x w i (col b c) - proj x w j (col b c))) := by
  rw [val_main_v7_apply, val_main_v6_apply, val_main_v4_apply, val_main_v5_apply, val_main_v2_apply, val_main_v3_apply]
  have e1 : idx_main_v2 (idx_main_v4 (ix4 i j b c)) = ix3 i b c := funext fun a => Fin.ext (by
    match a with
    | ⟨0, _⟩ => rfl
    | ⟨1, _⟩ => rfl
    | ⟨2, _⟩ => rfl)
  have e2 : idx_main_v3 (idx_main_v5 (ix4 i j b c)) = ix3 j b c := funext fun a => Fin.ext (by
    match a with
    | ⟨0, _⟩ => rfl
    | ⟨1, _⟩ => rfl
    | ⟨2, _⟩ => rfl)
  rw [e1, e2, table_at, table_at]
  rfl

/-- `exp` of minus the distance, on the grid (sample i, sample j, feature). -/
theorem kernelTerm_at (i j : Fin 256) (b : Fin 64) :
    val_main_v10 (F := Ideal) x w (ix3 i j b) = Ideal.exp (-(l1dist (proj x w) b i j)) := by
  rw [val_main_v10_apply, val_main_v9_apply, val_main_v8_apply]
  show Ideal.exp (-(Ideal.ofBits .f32 0x00000000#32 + ∑ k : Fin 16, val_main_v7 (F := Ideal) x w (idx_main_v8 (ix3 i j b) k))) = _
  rw [Ideal.ofBits_zero_f32, zero_add]
  unfold l1dist
  refine congrArg (fun z => Ideal.exp (-z)) (Finset.sum_congr rfl fun k _ => ?_)
  have e : idx_main_v8 (ix3 i j b) k = ix4 i j b k := funext fun a => Fin.ext (by
    match a with
    | ⟨0, _⟩ => rfl
    | ⟨1, _⟩ => rfl
    | ⟨2, _⟩ => rfl
    | ⟨3, _⟩ => rfl)
  rw [e, absdiff_at]

/-- The reference's result is the specification's. -/
theorem ref_eq : val_main_v14 (F := Ideal) x w bias = result x w bias := by
  funext y
  obtain ⟨j, b, rfl⟩ : ∃ (j : Fin 256) (b : Fin 64), y = ix2 j b := ⟨y 0, y 1, eq_ix2 y⟩
  rw [val_main_v14_apply, val_main_v11_apply, val_main_v13_apply, val_main_v12_apply, result_apply]
  show (Ideal.ofBits .f32 0x00000000#32 + ∑ k : Fin 256, val_main_v10 (F := Ideal) x w (idx_main_v11 (ix2 j b) k))
      + bias (idx_main_v12 (idx_main_v13 (ix2 j b))) = _
  rw [Ideal.ofBits_zero_f32, zero_add]
  unfold score
  have eb : idx_main_v12 (idx_main_v13 (ix2 j b)) = ix1 b := funext fun a => Fin.ext (by
    match a with
    | ⟨0, _⟩ => rfl)
  rw [eb]
  refine congrArg (· + _) (Finset.sum_congr rfl fun k _ => ?_)
  have e : idx_main_v11 (ix2 j b) k = ix3 k j b := funext fun a => Fin.ext (by
    match a with
    | ⟨0, _⟩ => rfl
    | ⟨1, _⟩ => rfl
    | ⟨2, _⟩ => rfl)
  rw [e, kernelTerm_at]

end Cert.ReferenceIdeal.Score

end
-- ==== Proof.lean ====
/-
  The proof of `Cert.Claim`: the three frames, the (empty) idealization ledger, and the equality of the two
  idealized programs' results over the extended reals.

  Both programs compute, at sample `j` and feature `b`, the sum over all samples `i` of `exp` of minus the L1 distance
  between the sixteen projected components of `i` and `j` for that feature, plus the feature's bias
  (`Cert.PairDist.result`). The kernel's program ends with its result array at that function of its arguments
  (`Cert.KernelIdeal.Score.run`), the reference's run ends at a term that is the same function
  (`Cert.ReferenceIdeal.Score.ref_eq`), and the arguments agree. The law joining the two sides is the
  commutativity of the product of two extended reals; no sum is re-associated across an infinity and nothing is
  cancelled, so the precondition is not used.
-/
import proofs.«117307_j19670950216008_2_alg».proof.Defs
import proofs.«117307_j19670950216008_2_alg».proof.Proof.Gen.Kernel
import proofs.«117307_j19670950216008_2_alg».proof.Proof.Gen.Kernel.Skeleton
import proofs.«117307_j19670950216008_2_alg».proof.Proof.Gen.Kernel.Launch
import proofs.«117307_j19670950216008_2_alg».proof.Proof.Gen.Kernel.Points
import proofs.«117307_j19670950216008_2_alg».proof.Proof.Gen.Kernel.Frame
import proofs.«117307_j19670950216008_2_alg».proof.Proof.Gen.KernelIdeal
import proofs.«117307_j19670950216008_2_alg».proof.Proof.Gen.KernelIdeal.Skeleton
import proofs.«117307_j19670950216008_2_alg».proof.Proof.Gen.KernelIdeal.Launch
import proofs.«117307_j19670950216008_2_alg».proof.Proof.Gen.KernelIdeal.Points
import proofs.«117307_j19670950216008_2_alg».proof.Proof.Gen.KernelIdeal.Frame
import proofs.«117307_j19670950216008_2_alg».proof.Proof.Gen.ReferenceIdeal
import proofs.«117307_j19670950216008_2_alg».proof.Proof.Gen.Pre_finite_inputs
import proofs.«117307_j19670950216008_2_alg».proof.Proof.Gen.ReferenceIdeal.Run
import proofs.«117307_j19670950216008_2_alg».proof.Proof.Gen.ReferenceIdeal.Read
import proofs.«117307_j19670950216008_2_alg».proof.Proof.KernelScore
import proofs.«117307_j19670950216008_2_alg».proof.Proof.RefScore
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments alone: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both idealized programs end with the specification's result array. -/
theorem algebraic : Cert.algebraic_KernelIdeal_ReferenceIdeal := by
  intro m ρ m' ρ' _ hagree
  refine ⟨fun c => Cert.PairDist.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Score.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v14_eq, Cert.ReferenceIdeal.Score.ref_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
